-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x64x1024 : Shape := ⟨3, ![2048, 64, 1024]⟩
abbrev S2x1024 : Shape := ⟨2, ![2, 1024]⟩
abbrev S64 : Shape := ⟨1, ![64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x64x1024 : S_.BroadcastsInDim S2048x64x1024 (![] : Fin 0 → Fin S2048x64x1024.rank)
  reducesTo_S2048x64x1024_S_d0_1_2 : S2048x64x1024.ReducesTo [0, 1, 2] S_
  bcast_S_S2x1024 : S_.BroadcastsInDim S2x1024 (![] : Fin 0 → Fin S2x1024.rank)
  reducesTo_S2x1024_S_d0_1 : S2x1024.ReducesTo [0, 1] S_

variable [Facts]

def fn {F : FTy → Type} [FloatOps F] (main_arg0 : FVec F S2048x64 .f32) (main_arg1 : FVec F S2048x64x1024 .f32) (main_arg2 : FVec F S2x1024 .f32) (main_arg3 : IVec S64 32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64x1024 .f32 := Host.absf main_arg1
  let main_cst_0 : FVec F S_ .f32 := constant S_ .f32 0x7F800000#32
  let main_v5 : FVec F S2048x64x1024 .f32 := broadcastInDim S2048x64x1024 ![] bcast_S_S2048x64x1024 main_cst_0
  let main_v6 : IVec S2048x64x1024 1 := cmpf .olt main_v4 main_v5
  let main_c_1 : IVec S_ 1 := constantI S_ 1 1#1
  let main_v7 : IVec S_ 1 := (fun x v => Host.reduce IntOp.andi x v reducesTo_S2048x64x1024_S_d0_1_2 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  main_v13
-- ==== Kernel.lean ====
abbrev S2048x64 : Shape := ⟨2, ![2048, 64]⟩
abbrev S2048x64x1024 : Shape := ⟨3, ![2048, 64, 1024]⟩
abbrev S2x1024 : Shape := ⟨2, ![2, 1024]⟩
abbrev S64 : Shape := ⟨1, ![64]⟩
abbrev S1x64 : Shape := ⟨2, ![1, 64]⟩
abbrev S32x64x1024 : Shape := ⟨3, ![32, 64, 1024]⟩
abbrev S32x64 : Shape := ⟨2, ![32, 64]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x64, .f32⟩
  | .hbm, ⟨1, _⟩ => ⟨S2048x64x1024, .f32⟩
  | .hbm, ⟨2, _⟩ => ⟨S2x1024, .f32⟩
  | .hbm, ⟨3, _⟩ => ⟨S64, .i32⟩
  | .hbm, ⟨4, _⟩ => ⟨S1x64, .i32⟩
  | .hbm, ⟨5, _⟩ => ⟨S1x64, .f32⟩
  | .hbm, ⟨6, _⟩ => ⟨S64, .f32⟩
  | .local _ .vmem, ⟨0, _⟩ => ⟨S32x64x1024, .f32⟩
  | .local _ .vmem, ⟨1, _⟩ => ⟨S32x64x1024, .f32⟩
  | .local _ .vmem, ⟨2, _⟩ => ⟨S32x64, .f32⟩
  | .local _ .vmem, ⟨3, _⟩ => ⟨S32x64, .f32⟩
  | .local _ .vmem, ⟨4, _⟩ => ⟨S2x1024, .f32⟩
  | .local _ .vmem, ⟨5, _⟩ => ⟨S1x64, .i32⟩
  | .local _ .vmem, ⟨6, _⟩ => ⟨S1x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  inb_S32x64x1024_S32x64x1024_0_0_0 : ∀ a, (![0, 0, 0] : Fin 3 → Nat) a + S32x64x1024.size a ≤ S32x64x1024.size a
  h_S32x64x1024 : 0 < S32x64x1024.numel
  inb_S2x1024_S2x1024_0_0 : ∀ a, (![0, 0] : Fin 2 → Nat) a + S2x1024.size a ≤ S2x1024.size a
  h_S2x1024 : 0 < S2x1024.numel
  slices_S2x1024_o0_0_S1x1024 : S2x1024.Slices ![0, 0] S1x1024
  shapeCasts_S1x1024_S1024 : S1x1024.ShapeCasts S1024
  slices_S2x1024_o1_0_S1x1024 : S2x1024.Slices ![1, 0] S1x1024
  shapeCasts_S1024_S1x1x1024 : S1024.ShapeCasts S1x1x1024
  broadcasts_S1x1x1024_S32x64x1024 : S1x1x1024.Broadcasts S32x64x1024
  reduces_S32x64x1024_S32x64 : S32x64x1024.Reduces [2] S32x64
  inb_S32x64_S32x64_0_0 : ∀ a, (![0, 0] : Fin 2 → Nat) a + S32x64.size a ≤ S32x64.size a
  h_S32x64 : 0 < S32x64.numel
  iota_S32x64_d0_w32 : S32x64.Iotas .tc 32 [0]
  shapeCasts_S1x64_S1x64 : S1x64.ShapeCasts S1x64
  broadcasts_S1x64_S32x64 : S1x64.Broadcasts S32x64
  reduces_S32x64_S64 : S32x64.Reduces [0] S64
  shapeCasts_S1x64_S64 : S1x64.ShapeCasts S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x1024.size a ≤ S2048x64x1024.size a
  hwx0_0 : ∀ i : grid0.Coords, EltTy.bits .f32 = 32 ∨ (Rect.block (s := S2048x64x1024) S32x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S2048x64.size a
  hwx0_1 : ∀ i : grid0.Coords, EltTy.bits .f32 = 32 ∨ (Rect.block (s := S2048x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .i32 = 32 ∨ (Rect.block (s := S1x64) S1x64.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)

variable [Facts₀]

abbrev win0_0 : Pipeline.Window sig grid0 :=
  Pipeline.Window.ofSpec (Memref.whole main_arg1) S32x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x64x1024 : Shape := ⟨3, ![2048, 64, 1024]⟩
abbrev S2x1024 : Shape := ⟨2, ![2, 1024]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64x2 : Shape := ⟨3, ![2048, 64, 2]⟩
abbrev S2048x64x1 : Shape := ⟨3, ![2048, 64, 1]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64x1024, .f32⟩
  | .hbm, ⟨2, _⟩ => ⟨S2x1024, .f32⟩
  | .hbm, ⟨3, _⟩ => ⟨S64, .i32⟩
  | .hbm, ⟨4, _⟩ => ⟨S2048, .i32⟩
  | .hbm, ⟨5, _⟩ => ⟨S2048x1, .i32⟩
  | .hbm, ⟨6, _⟩ => ⟨S1x64, .i32⟩
  | .hbm, ⟨7, _⟩ => ⟨S2048x64, .i32⟩
  | .hbm, ⟨8, _⟩ => ⟨S2048x64, .i32⟩
  | .hbm, ⟨9, _⟩ => ⟨S2048x64, .i1⟩
  | .hbm, ⟨10, _⟩ => ⟨S2048x64x2, .f32⟩
  | .hbm, ⟨11, _⟩ => ⟨S2048x64x1, .f32⟩
  | .hbm, ⟨12, _⟩ => ⟨S2048x64, .f32⟩
  | .hbm, ⟨13, _⟩ => ⟨S2048x64x1, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S_, .f32⟩
  | .hbm, ⟨18, _⟩ => ⟨S2048x64, .f32⟩
  | .hbm, ⟨19, _⟩ => ⟨S2048x64, .f32⟩
  | .hbm, ⟨20, _⟩ => ⟨S_, .f32⟩
  | .hbm, ⟨21, _⟩ => ⟨S2048x64, .f32⟩
  | .hbm, ⟨22, _⟩ => ⟨S2048x64, .f32⟩
  | .hbm, ⟨23, _⟩ => ⟨S_, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S_, .f32⟩
  | .hbm, ⟨32, _⟩ => ⟨S2048x64, .f32⟩
  | .hbm, ⟨33, _⟩ => ⟨S2048x64, .f32⟩
  | .hbm, ⟨34, _⟩ => ⟨S_, .f32⟩
  | .hbm, ⟨35, _⟩ => ⟨S2048x64, .f32⟩
  | .hbm, ⟨36, _⟩ => ⟨S2048x64, .f32⟩
  | .hbm, ⟨37, _⟩ => ⟨S_, .f32⟩
  | .hbm, ⟨38, _⟩ => ⟨S_, .f32⟩
  | .hbm, ⟨39, _⟩ => ⟨S2048x64, .f32⟩
  | .hbm, ⟨40, _⟩ => ⟨S2048x64, .f32⟩
  | .hbm, ⟨41, _⟩ => ⟨S_, .f32⟩
  | .hbm, ⟨42, _⟩ => ⟨S64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  slices_S2048x64x2_S2048x64x1_0_0_0 : S2048x64x2.Slices ![0, 0, 0] S2048x64x1
  shapeCasts_S2048x64x1_S2048x64 : S2048x64x1.ShapeCasts S2048x64
  slices_S2048x64x2_S2048x64x1_0_0_1 : S2048x64x2.Slices ![0, 0, 1] S2048x64x1
  bcast_S_S2048x64 : S_.BroadcastsInDim S2048x64 (![] : Fin 0 → Fin S2048x64.rank)
  reducesTo_S2048x64_S64_d0 : S2048x64.ReducesTo [0] S64
  h_S_ : 0 < S_.numel
  dot_S2048x64x1024_S2x1024_S2048x64x2_2_1_01_0_n_n_wf : DotDims.WF S2048x64x1024 S2x1024 S2048x64x2 [2] [1] [0, 1] [0] [] []

variable [Facts₀]

def dot_S2048x64x1024_S2x1024_S2048x64x2_2_1_01_0_n_n : DotDims S2048x64x1024 S2x1024 S2048x64x2 where
  lhsContracting := [2]
  rhsContracting := [1]
  lhsNonContracting := [0, 1]
  rhsNonContracting := [0]
  lhsBatch := []
  rhsBatch := []
  wf := dot_S2048x64x1024_S2x1024_S2048x64x2_2_1_01_0_n_n_wf

class Facts : Prop extends Facts₀ where

variable [Facts]
-- ==== Proof.NllSpec.lean ====
/-
  The masked Gaussian negative log-likelihood summed over time, as one function of the argument arrays.

  For targets y[t, n], features x[t, n, ·], a two-row weight W and lengths lens[n], position (t, n) has
    mean      mu = Σ_d x[t, n, d] · W[0, d]
    variance  v  = max (logistic (Σ_d x[t, n, d] · W[1, d])) ε
    loss      ½ · (log v + (y − mu)² / v) + c
  counted only where t < lens[n] (a signed comparison of 32-bit words), and the result at n is the sum of the
  counted losses over all 2048 times. The three float literals ε, ½ and c are kept as their bit patterns: both
  programs spell the same patterns, so what they denote never matters.

  The sum over time is also written as a sum over a range of naturals (`termN` pads with zero past the last time),
  the form in which a running sum over consecutive row blocks is extended block by block.
-/
import Idealize.ShloMosaic.PureOps.Ideal
import Idealize.ShloMosaic.PureOps.Ideal.Laws
import Idealize.ShloMosaic.Lib.ValueIdx

noncomputable section

namespace Cert.NllSpec

open Idealize.ShloMosaic Idealize.ShloMosaic.ValueIdx

/-- The loss of one position from its mean `mu`, the logit `lg` of its variance and its target `yv`. -/
def nllAt (mu lg yv : EReal) : EReal :=
  Ideal.ofBits .f32 0x3F000000#32
      * (Ideal.log (max (Ideal.logistic lg) (Ideal.ofBits .f32 0x358637BD#32))
        + Ideal.div ((yv - mu) * (yv - mu)) (max (Ideal.logistic lg) (Ideal.ofBits .f32 0x358637BD#32)))
    + Ideal.ofBits .f32 0x3F6B3F8E#32

/-- Row `k` of the weight against the features of position (t, n). -/
def proj (x : (⟨3, ![2048, 64, 1024]⟩ : Shape).Idx → EReal) (W : (⟨2, ![2, 1024]⟩ : Shape).Idx → EReal)
    (k : Fin 2) (t : Fin 2048) (n : Fin 64) : EReal :=
  ∑ d : Fin 1024, x (ix3 t n d) * W (ix2 k d)

/-- The counted loss of position (t, n): the loss where `t < lens n`, zero elsewhere. -/
def term (y : (⟨2, ![2048, 64]⟩ : Shape).Idx → EReal) (x : (⟨3, ![2048, 64, 1024]⟩ : Shape).Idx → EReal)
    (W : (⟨2, ![2, 1024]⟩ : Shape).Idx → EReal) (lens : (⟨1, ![64]⟩ : Shape).Idx → BitVec 32)
    (t : Fin 2048) (n : Fin 64) : EReal :=
  Scalar.select (IntOp.cmpi .slt (BitVec.ofNat 32 t.val) (lens (ix1 n)))
    (nllAt (proj x W 0 t n) (proj x W 1 t n) (y (ix2 t n))) (Ideal.ofBits .f32 0x00000000#32)

/-- The same at any natural time: zero past the last one. -/
def termN (y : (⟨2, ![2048, 64]⟩ : Shape).Idx → EReal) (x : (⟨3, ![2048, 64, 1024]⟩ : Shape).Idx → EReal)
    (W : (⟨2, ![2, 1024]⟩ : Shape).Idx → EReal) (lens : (⟨1, ![64]⟩ : Shape).Idx → BitVec 32)
    (n : Fin 64) (t : ℕ) : EReal :=
  if h : t < 2048 then term y x W lens ⟨t, h⟩ n else 0

theorem termN_of_lt (y : (⟨2, ![2048, 64]⟩ : Shape).Idx → EReal) (x : (⟨3, ![2048, 64, 1024]⟩ : Shape).Idx → EReal)
    (W : (⟨2, ![2, 1024]⟩ : Shape).Idx → EReal) (lens : (⟨1, ![64]⟩ : Shape).Idx → BitVec 32)
    (n : Fin 64) (t : ℕ) (h : t < 2048) : termN y x W lens n t = term y x W lens ⟨t, h⟩ n :=
  dif_pos h

/-- The result: at sequence n, the counted losses summed over every time. -/
def total (y : (⟨2, ![2048, 64]⟩ : Shape).Idx → EReal) (x : (⟨3, ![2048, 64, 1024]⟩ : Shape).Idx → EReal)
    (W : (⟨2, ![2, 1024]⟩ : Shape).Idx → EReal) (lens : (⟨1, ![64]⟩ : Shape).Idx → BitVec 32) :
    (⟨1, ![64]⟩ : Shape).Idx → EReal :=
  fun j => ∑ t : Fin 2048, term y x W lens t (j 0)

/-- The sum over the 2048 times is the sum of the padded terms over the first 2048 naturals. -/
theorem total_eq_range (y : (⟨2, ![2048, 64]⟩ : Shape).Idx → EReal) (x : (⟨3, ![2048, 64, 1024]⟩ : Shape).Idx → EReal)
    (W : (⟨2, ![2, 1024]⟩ : Shape).Idx → EReal) (lens : (⟨1, ![64]⟩ : Shape).Idx → BitVec 32) (n : Fin 64) :
    ∑ t : Fin 2048, term y x W lens t n = ∑ t ∈ Finset.range 2048, termN y x W lens n t := by
  rw [Finset.sum_range]
  exact Finset.sum_congr rfl fun t _ => (termN_of_lt y x W lens n t.val t.isLt).symm

/-- A running sum over the first `a` naturals extended by the next `b`: the block's own sum is added. -/
theorem range_add_block {M : Type*} [AddCommMonoid M] (f : ℕ → M) (a b : ℕ) :
    ∑ t ∈ Finset.range (a + b), f t = ∑ t ∈ Finset.range a, f t + ∑ r : Fin b, f (a + r.val) := by
  rw [Finset.sum_range_add, Finset.sum_range fun r => f (a + r)]

/-- The pattern of 1.0 denotes the real one. -/
theorem ofBits_one_f32 : Ideal.ofBits .f32 0x3F800000#32 = 1 :=
  IdealRules.sign_bit.ideal_onePat .f32

/-- The logistic function is the quotient the expanded form spells: 1 / (1 + e^(−x)), on every extended real. -/
theorem logistic_expanded (x : EReal) :
    Ideal.div (Ideal.ofBits .f32 0x3F800000#32) (Ideal.ofBits .f32 0x3F800000#32 + Ideal.exp (-x)) = Ideal.logistic x := by
  rw [ofBits_one_f32]; rfl

end Cert.NllSpec

end
-- ==== Proof.TileValue.lean ====
/-
  What one grid point's body computes, read at an entry.

  At a grid point the body holds a block of 32 times of the features (32 × 64 × 1024), the matching 32 × 64 block of
  targets, the whole 2 × 1024 weight and the 1 × 64 row of lengths. Its 32 × 64 tile of counted losses has, at row r
  and sequence n, the loss of the two weight rows against the features of (r, n) — each a sum over the 1024 feature
  coordinates — where the word `r + 32·point` is signed-below the length word of n, and zero elsewhere. The body then
  adds the tile's column sums to the 1 × 64 accumulator.

  Each weight row reaches the product as a slice of the weight, cast to a vector, cast to 1 × 1 × 1024 and repeated
  over the 32 × 64 positions: at (r, n, d) that is the weight at (k, d). The lengths row is repeated over the 32 rows:
  at (r, n) it is the length at (0, n). The row counter is the block's row plus the splat of `32·point`.
-/
import proofs.«161206_j82325933130458_2_alg».proof.Proof.Gen.KernelIdeal.Skeleton
import proofs.«161206_j82325933130458_2_alg».proof.Proof.NllSpec
import Idealize.ShloMosaic.Lib.Pipeline.Value
import Idealize.ShloMosaic.Lib.ValueIdx
import Idealize.ShloMosaic.PureOps.Ideal.Laws

noncomputable section

namespace Cert.KernelIdeal.TileValue

open Cert.KernelIdeal Cert.KernelIdeal.Gen Idealize.ShloMosaic Idealize.ShloMosaic.ValueIdx Cert.NllSpec

/-- A weight row repeated over the block: slice, cast to a vector, cast to 1 × 1 × 1024, broadcast. -/
def wrow (off : Fin 2 → Nat) (hs : S2x1024.Slices off S1x1024) (v4 : Vec Ideal S2x1024 .f32) : FVec Ideal S32x64x1024 .f32 :=
  broadcastTo S32x64x1024
    (shapeCast S1x1x1024 (shapeCast S1024 (extractStridedSlice S1x1024 off v4 hs) shapeCasts_S1x1024_S1024) shapeCasts_S1024_S1x1x1024)
    broadcasts_S1x1x1024_S32x64x1024

/-- At (r, n, d) the repeated row k is the weight at (k, d). -/
theorem wrow_apply (k : Fin 2) (off : Fin 2 → Nat) (hoff : off = ![k.val, 0]) (hs : S2x1024.Slices off S1x1024)
    (v4 : Vec Ideal S2x1024 .f32) (r : Fin 32) (n : Fin 64) (d : Fin 1024) :
    wrow off hs v4 (ix3 r n d) = v4 (ix2 k d) := by
  subst hoff
  unfold wrow
  refine (broadcastTo_apply _ broadcasts_S1x1x1024_S32x64x1024 (ix3 r n d) (ix3 (0 : Fin 1) (0 : Fin 1) d) (fun a => ?_)).trans ?_
  · match a with
    | ⟨0, _⟩ => rfl
    | ⟨1, _⟩ => rfl
    | ⟨2, _⟩ => rfl
  refine (shapeCast_apply _ shapeCasts_S1024_S1x1x1024 (ix3 (0 : Fin 1) (0 : Fin 1) d) (ix1 d) ?_).trans ?_
  · rw [Shape.rowMajor_val_one, Shape.rowMajor_val_three]
    show d.val = (0 * 1 + 0) * 1024 + d.val
    omega
  refine (shapeCast_apply _ shapeCasts_S1x1024_S1024 (ix1 d) (ix2 (0 : Fin 1) d) ?_).trans ?_
  · rw [Shape.rowMajor_val_two, Shape.rowMajor_val_one]
    show 0 * 1024 + d.val = d.val
    omega
  exact extractStridedSlice_apply _ v4 hs (ix2 (0 : Fin 1) d) (ix2 k d) (fun a => by
    match a with
    | ⟨0, _⟩ => show k.val = k.val + 0; omega
    | ⟨1, _⟩ => show d.val = 0 + d.val; omega)

/-- A weight row against every position of the block: the lane sum of the products. -/
def rowdot (off : Fin 2 → Nat) (hs : S2x1024.Slices off S1x1024) (v3 : Vec Ideal S32x64x1024 .f32) (v4 : Vec Ideal S2x1024 .f32) :
    FVec Ideal S32x64 .f32 :=
  multiReduction .add [2] S32x64 (mulf v3 (wrow off hs v4)) 0x00000000#32 reduces_S32x64x1024_S32x64 (.inl rfl) rfl

/-- At (r, n) it is the sum over the feature coordinate of feature times weight. -/
theorem rowdot_apply (k : Fin 2) (off : Fin 2 → Nat) (hoff : off = ![k.val, 0]) (hs : S2x1024.Slices off S1x1024)
    (v3 : Vec Ideal S32x64x1024 .f32) (v4 : Vec Ideal S2x1024 .f32) (r : Fin 32) (n : Fin 64) :
    rowdot off hs v3 v4 (ix2 r n) = ∑ d : Fin 1024, v3 (ix3 r n d) * v4 (ix2 k d) := by
  unfold rowdot
  refine (Ideal.multiReduction_add_single (mulf v3 (wrow off hs v4)) 0x00000000#32 reduces_S32x64x1024_S32x64 (.inl rfl) rfl
    (ix2 r n)).trans ?_
  refine Finset.sum_congr rfl fun d _ => ?_
  have e : reduces_S32x64x1024_S32x64.lift (ix2 r n) d = ix3 r n d := funext fun a => Fin.ext (by
    match a with
    | ⟨0, _⟩ => rfl
    | ⟨1, _⟩ => rfl
    | ⟨2, _⟩ => rfl)
  refine (congrArg (mulf v3 (wrow off hs v4)) e).trans ?_
  show v3 (ix3 r n d) * wrow off hs v4 (ix3 r n d) = _
  rw [wrow_apply k off hoff hs v4 r n d]

/-- The mask: the row counter `row + 32·point` signed-below the repeated lengths row. -/
def maskv (i : grid0.Coords) (v34 : Vec Ideal S1x64 .i32) : IVec S32x64 1 :=
  cmpi .slt
    (addi (iota .tc S32x64 32 [0] iota_S32x64_d0_w32) (broadcast S32x64 (Scalar.muli (BitVec.ofNat 32 (i 0).val) 32#32)))
    (broadcastTo S32x64 (shapeCast S1x64 v34 shapeCasts_S1x64_S1x64) broadcasts_S1x64_S32x64)

/-- At (r, n): the word of r plus `32·point` against the length word of n. -/
theorem maskv_apply (i : grid0.Coords) (v34 : Vec Ideal S1x64 .i32) (r : Fin 32) (n : Fin 64) :
    maskv i v34 (ix2 r n)
      = IntOp.cmpi .slt (BitVec.ofNat 32 r.val + BitVec.ofNat 32 (i 0).val * 32#32) (v34 (ix2 (0 : Fin 1) n)) := by
  unfold maskv
  show IntOp.cmpi .slt (IntOp.addi (iota .tc S32x64 32 [0] iota_S32x64_d0_w32 (ix2 r n)) (Scalar.muli (BitVec.ofNat 32 (i 0).val) 32#32))
      (broadcastTo S32x64 (shapeCast S1x64 v34 shapeCasts_S1x64_S1x64) broadcasts_S1x64_S32x64 (ix2 r n)) = _
  rw [iota_single_apply,
    broadcastTo_apply (shapeCast S1x64 v34 shapeCasts_S1x64_S1x64) broadcasts_S1x64_S32x64 (ix2 r n) (ix2 (0 : Fin 1) n) (fun a => by
      match a with
      | ⟨0, _⟩ => rfl
      | ⟨1, _⟩ => rfl),
    shapeCast_self]
  rfl

/-- The body's tile, with its intermediate values named. -/
theorem pay3_eq (i : grid0.Coords) (v3 : Vec Ideal S32x64x1024 .f32) (v4 : Vec Ideal S2x1024 .f32) (v20 : Vec Ideal S32x64 .f32)
    (v34 : Vec Ideal S1x64 .i32) :
    k0_pay3 (F := Ideal) i v3 v4 v20 v34
      = select (maskv i v34)
          (addf (mulf (broadcast S32x64 (Scalar.ofBits .f32 0x3F000000#32))
              (addf (log (maximumf (logistic (rowdot ![1, 0] slices_S2x1024_o1_0_S1x1024 v3 v4)) (broadcast S32x64 (Scalar.ofBits .f32 0x358637BD#32))))
                (divf (mulf (subf v20 (rowdot ![0, 0] slices_S2x1024_o0_0_S1x1024 v3 v4)) (subf v20 (rowdot ![0, 0] slices_S2x1024_o0_0_S1x1024 v3 v4)))
                  (maximumf (logistic (rowdot ![1, 0] slices_S2x1024_o1_0_S1x1024 v3 v4)) (broadcast S32x64 (Scalar.ofBits .f32 0x358637BD#32))))))
            (broadcast S32x64 (Scalar.ofBits .f32 0x3F6B3F8E#32)))
          (broadcast S32x64 (Scalar.ofBits .f32 0x00000000#32)) := rfl

/-- THE TILE AT AN ENTRY: the counted loss of the block's row r and sequence n. -/
theorem tile_apply (i : grid0.Coords) (v3 : Vec Ideal S32x64x1024 .f32) (v4 : Vec Ideal S2x1024 .f32) (v20 : Vec Ideal S32x64 .f32)
    (v34 : Vec Ideal S1x64 .i32) (r : Fin 32) (n : Fin 64) :
    k0_pay3 (F := Ideal) i v3 v4 v20 v34 (ix2 r n)
      = Scalar.select (IntOp.cmpi .slt (BitVec.ofNat 32 r.val + BitVec.ofNat 32 (i 0).val * 32#32) (v34 (ix2 (0 : Fin 1) n)))
          (nllAt (∑ d : Fin 1024, v3 (ix3 r n d) * v4 (ix2 (0 : Fin 2) d)) (∑ d : Fin 1024, v3 (ix3 r n d) * v4 (ix2 (1 : Fin 2) d))
            (v20 (ix2 r n)))
          (Ideal.ofBits .f32 0x00000000#32) := by
  rw [pay3_eq]
  show Scalar.select (maskv i v34 (ix2 r n))
      (nllAt (rowdot ![0, 0] slices_S2x1024_o0_0_S1x1024 v3 v4 (ix2 r n)) (rowdot ![1, 0] slices_S2x1024_o1_0_S1x1024 v3 v4 (ix2 r n))
        (v20 (ix2 r n)))
      (Ideal.ofBits .f32 0x00000000#32) = _
  rw [maskv_apply, rowdot_apply 0 ![0, 0] rfl, rowdot_apply 1 ![1, 0] rfl]

/-- The accumulating store's value: the accumulator plus the tile's column sums. At (0, n): the old entry plus the sum
    over the block's 32 rows of the tile at (r, n). -/
theorem pay1_apply (tile : FVec Ideal S32x64 .f32) (acc : Vec Ideal S1x64 .f32) (n : Fin 64) :
    k0_pay1 (F := Ideal) tile acc (ix2 (0 : Fin 1) n) = acc (ix2 (0 : Fin 1) n) + ∑ r : Fin 32, tile (ix2 r n) := by
  unfold k0_pay1
  show shapeCast S1x64 acc shapeCasts_S1x64_S1x64 (ix2 (0 : Fin 1) n)
      + shapeCast S1x64 (multiReduction .add [0] S64 tile 0x00000000#32 reduces_S32x64_S64 (.inl rfl) rfl) shapeCasts_S64_S1x64
          (ix2 (0 : Fin 1) n) = _
  rw [shapeCast_self,
    shapeCast_apply (multiReduction .add [0] S64 tile 0x00000000#32 reduces_S32x64_S64 (.inl rfl) rfl) shapeCasts_S64_S1x64
      (ix2 (0 : Fin 1) n) (ix1 n) (by
        rw [Shape.rowMajor_val_one, Shape.rowMajor_val_two]
        show n.val = 0 * 64 + n.val
        omega)]
  refine congrArg (acc (ix2 (0 : Fin 1) n) + ·) ?_
  refine (Ideal.multiReduction_add_single tile 0x00000000#32 reduces_S32x64_S64 (.inl rfl) rfl (ix1 n)).trans ?_
  refine Finset.sum_congr rfl fun r _ => congrArg tile (funext fun a => Fin.ext (by
    match a with
    | ⟨0, _⟩ => rfl
    | ⟨1, _⟩ => rfl))

/-- The reset store's value is the zero pattern everywhere. -/
theorem pay2_apply (j : S1x64.Idx) : k0_pay2 (F := Ideal) j = Ideal.ofBits .f32 0x00000000#32 := rfl

end Cert.KernelIdeal.TileValue

end
-- ==== Proof.KernelValue.lean ====
/-
  What the kernel's result array holds: the specification's total.

  The grid has 64 points; point p holds times 32·p … 32·p + 31. The body keeps one 1 × 64 accumulator in its output's
  staging buffer, whose block index never moves: at point 0 it stores zeros, reads them back and adds the column sums
  of its tile; at every later point it adds the column sums of its tile to what the point before left; the buffer is
  written back to the 1 × 64 result once, after the last point, and a reshape to 64 entries follows the region.

  So after point p the accumulator's entry (0, n) is the sum of the counted losses of sequence n over the first
  32·(p + 1) times — by induction on the point: the tile's entry (r, n) at point p is the counted loss at time 32·p + r
  (the feature and target blocks read the arrays at row 32·p + r; the weight and the lengths are read whole, the
  lengths through the reshape that precedes the region; the row counter's word is the word of 32·p + r), and a sum over
  a range of naturals extended by a block is the sum plus the block's own sum. After the last point that is the sum
  over all 2048 times. Only the associativity of addition on the extended reals is used: no finiteness.
-/
import proofs.«161206_j82325933130458_2_alg».proof.Proof.Gen.KernelIdeal.Frame
import proofs.«161206_j82325933130458_2_alg».proof.Proof.TileValue
import proofs.«161206_j82325933130458_2_alg».proof.Proof.NllSpec
import Idealize.ShloMosaic.Lib.Pipeline.Value
import Idealize.ShloMosaic.Lib.StableHlo.Run
import Idealize.ShloMosaic.Lib.Tactic

noncomputable section

namespace Cert.KernelIdeal.AccValue

open Cert.KernelIdeal Cert.KernelIdeal.Gen Idealize.ShloMosaic Idealize.ShloMosaic.TcCoe Idealize.SL.Sem
open Idealize.ShloMosaic.Tactic Idealize.ShloMosaic.ValueIdx Cert.NllSpec
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves in the accumulator -/

section Cases
variable {F : FTy → Type} [FloatOps F]

/-- A later point: the old accumulator plus the tile's column sums (one covering store; its loads read the whole
    buffers). -/
theorem out_B (c : Dev nD) (i : grid0.Coords) (a1 : Memref sig .tc .vmem S32x64x1024 .f32) (h1 : a1.IsWhole)
    (a2 : Memref sig .tc .vmem S32x64 .f32) (h2 : a2.IsWhole) (a3 : Memref sig .tc .vmem S2x1024 .f32) (h3 : a3.IsWhole)
    (a4 : Memref sig .tc .vmem S1x64 .i32) (h4 : a4.IsWhole) (a5 : Memref sig .tc .vmem S1x64 .f32) (h5 : a5.IsWhole)
    (hc : ¬cond0_0 i) (x0 : Vec F S32x64x1024 .f32) (x1 : Vec F S32x64 .f32) (x2 : Vec F S2x1024 .f32) (x3 : Vec F S1x64 .i32)
    (xo4 : Vec F S1x64 .f32) :
    out0_B_4 c i a1 h1 a2 h2 a3 h3 a4 h4 a5 h5 hc x0 x1 x2 x3 xo4 = k0_pay1 (k0_pay3 i x0 x2 x1 x3) xo4 := by
  unfold out0_B_4
  rw [View.read_writes_eq_canon _ _ _ (cover0_B_4 c i a1 h1 a2 h2 a3 h3 a4 h4 a5 h5 hc x0 x1 x2 x3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S32x64x1024) hz3, View.ld_unit_zero (S := S32x64) hz2, View.ld_unit_zero (S := S2x1024) hz2,
    View.ld_unit_zero (S := S1x64) hz2]

/-- The first point: the zeros just stored, read back, plus the tile's column sums. -/
theorem out_A (c : Dev nD) (i : grid0.Coords) (a1 : Memref sig .tc .vmem S32x64x1024 .f32) (h1 : a1.IsWhole)
    (a2 : Memref sig .tc .vmem S32x64 .f32) (h2 : a2.IsWhole) (a3 : Memref sig .tc .vmem S2x1024 .f32) (h3 : a3.IsWhole)
    (a4 : Memref sig .tc .vmem S1x64 .i32) (h4 : a4.IsWhole) (a5 : Memref sig .tc .vmem S1x64 .f32) (h5 : a5.IsWhole)
    (hc : cond0_0 i) (x0 : Vec F S32x64x1024 .f32) (x1 : Vec F S32x64 .f32) (x2 : Vec F S2x1024 .f32) (x3 : Vec F S1x64 .i32) :
    out0_A_4 c i a1 h1 a2 h2 a3 h3 a4 h4 a5 h5 hc x0 x1 x2 x3 = k0_pay1 (k0_pay3 i x0 x2 x1 x3) (k0_pay2 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h4.read_unread,
    View.ld_unit_zero (S := S32x64x1024) hz3, View.ld_unit_zero (S := S32x64) hz2, View.ld_unit_zero (S := S2x1024) hz2,
    View.ld_unit_zero (S := S1x64) hz2]

end Cases

/-! ## The blocks a point holds, read off the argument arrays -/

variable (m : (ℓ : Loc nD τ sig) → Buf (Elt Ideal) ℓ) (ρ : Dev nD → PrngReg)

/-- Where each window's block sits at point t, and the point's grid coordinate: decided over the grid. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ (grid0.coords t 0).val = t.val :=
  (by decide +kernel : ∀ t : Fin grid0.N, _)

theorem row_lt (t : Fin cfg0.N) (r : Fin 32) : 32 * t.val + r.val < 2048 := by
  have hN : cfg0.N = 64 := N_0
  have := t.isLt
  have := r.isLt
  omega

/-- The features' block at point t, entry (r, n, d): the features at time 32·t + r. -/
theorem xblk_apply (c : Dev nD) (t : Fin cfg0.N) (r : Fin 32) (n : Fin 64) (h : 32 * t.val + r.val < 2048) (d : Fin 1024) :
    iblk m c 0 t (ix3 r n d) = m ((c : Thread nD τ).loc main_arg1) (ix3 ⟨32 * t.val + r.val, h⟩ n d) := by
  obtain ⟨h0, h1, h2, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t (0 : Fin 3) * 32 + 1 * r.val = 32 * t.val + r.val; rw [h0]; omega
  | ⟨1, _⟩ => show win0_0.index t (1 : Fin 3) * 64 + 1 * n.val = n.val; rw [h1]; omega
  | ⟨2, _⟩ => show win0_0.index t (2 : Fin 3) * 1024 + 1 * d.val = d.val; rw [h2]; omega

/-- The targets' block at point t, entry (r, n): the target at time 32·t + r. -/
theorem yblk_apply (c : Dev nD) (t : Fin cfg0.N) (r : Fin 32) (n : Fin 64) (h : 32 * t.val + r.val < 2048) :
    iblk m c 1 t (ix2 r n) = m ((c : Thread nD τ).loc main_arg0) (ix2 ⟨32 * t.val + r.val, h⟩ n) := by
  obtain ⟨-, -, -, h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t (0 : Fin 2) * 32 + 1 * r.val = 32 * t.val + r.val; rw [h0]; omega
  | ⟨1, _⟩ => show win0_1.index t (1 : Fin 2) * 64 + 1 * n.val = n.val; rw [h1]; omega

/-- The weight is held whole at every point. -/
theorem wblk_apply (c : Dev nD) (t : Fin cfg0.N) (k : Fin 2) (d : Fin 1024) :
    iblk m c 2 t (ix2 k d) = m ((c : Thread nD τ).loc main_arg2) (ix2 k d) := by
  obtain ⟨-, -, -, -, -, h0, h1, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 2 + 1 * k.val = k.val; rw [h0]; omega
  | ⟨1, _⟩ => show win0_2.index t (1 : Fin 2) * 1024 + 1 * d.val = d.val; rw [h1]; omega

/-- The lengths as the region finds them: the argument reshaped to one row. -/
theorem V_lens (c : Dev nD) :
    (V m c main_v0 : S1x64.Idx → BitVec 32) = shapeCast S1x64 (m ((c : Thread nD τ).loc main_arg3)) shapeCasts_S64_S1x64 := by
  show StableHlo.after hostOps0 (fun b => m (c, b)) (Proc.devRef .tc main_v0) = _
  after_results
  rfl

/-- The lengths row is held whole at every point: entry (0, n) is the length of sequence n. -/
theorem lblk_apply (c : Dev nD) (t : Fin cfg0.N) (n : Fin 64) :
    iblk m c 3 t (ix2 (0 : Fin 1) n) = m ((c : Thread nD τ).loc main_arg3) (ix1 n) := by
  obtain ⟨-, -, -, -, -, -, -, h0, h1, -⟩ := idx_facts t
  unfold iblk
  rw [View.read_apply]
  show V m c main_v0 _ = _
  rw [V_lens]
  refine shapeCast_apply _ shapeCasts_S64_S1x64 _ (ix1 n) ?_
  rw [Shape.rowMajor_val_one, Shape.rowMajor_val_two]
  show n.val = (win0_3.index t (0 : Fin 2) * 1 + 1 * 0) * 64 + (win0_3.index t (1 : Fin 2) * 64 + 1 * n.val)
  rw [h0, h1]
  omega

/-- The row counter's word: the word of r plus the word of t times 32 is the word of 32·t + r. -/
theorem word_eq (r t : ℕ) : BitVec.ofNat 32 r + BitVec.ofNat 32 t * 32#32 = BitVec.ofNat 32 (32 * t + r) := by
  rw [Nat.add_comm (32 * t) r, BitVec.ofNat_add, Nat.mul_comm 32 t, BitVec.ofNat_mul]

/-- THE TILE AT POINT t, entry (r, n): the counted loss of sequence n at time 32·t + r. -/
theorem tile_at (c : Dev nD) (t : Fin cfg0.N) (r : Fin 32) (n : Fin 64) (h : 32 * t.val + r.val < 2048) :
    k0_pay3 (F := Ideal) (grid0.coords t) (iblk m c 0 t) (iblk m c 2 t) (iblk m c 1 t) (iblk m c 3 t) (ix2 r n)
      = term (m ((c : Thread nD τ).loc main_arg0)) (m ((c : Thread nD τ).loc main_arg1)) (m ((c : Thread nD τ).loc main_arg2))
          (m ((c : Thread nD τ).loc main_arg3)) ⟨32 * t.val + r.val, h⟩ n := by
  refine (TileValue.tile_apply (grid0.coords t) (iblk m c 0 t) (iblk m c 2 t) (iblk m c 1 t) (iblk m c 3 t) r n).trans ?_
  unfold term proj
  simp only [xblk_apply m c t r n h, yblk_apply m c t r n h, wblk_apply m c t, lblk_apply m c t n]
  rw [(idx_facts t).2.2.2.2.2.2.2.2.2.2.2, word_eq]

end Cert.KernelIdeal.AccValue

end
-- ==== Proof.KernelRun.lean ====
/-
  The accumulator after every point, the one write-back, and the kernel program's run.

  After point p the accumulator's entry (0, k) is the sum of sequence k's counted losses over the first 32·(p + 1)
  times: at point 0 the zeros just stored plus the first tile's column sums; at a later point what the point before
  left plus that point's column sums — a sum over a range of naturals extended by the next 32. After point 63 that is
  the sum over all 2048 times. The buffer is written back once, after point 63, and its block is the whole 1 × 64
  result array, which the reshape after the region reads as 64 entries.
-/
import proofs.«161206_j82325933130458_2_alg».proof.Proof.KernelValue

noncomputable section

namespace Cert.KernelIdeal.AccValue

open Cert.KernelIdeal Cert.KernelIdeal.Gen Idealize.ShloMosaic Idealize.ShloMosaic.TcCoe Idealize.SL.Sem
open Idealize.ShloMosaic.Tactic Idealize.ShloMosaic.ValueIdx Cert.NllSpec
open Idealize.ShloMosaic.Pipeline (Dat)

variable (m : (ℓ : Loc nD τ sig) → Buf (Elt Ideal) ℓ) (ρ : Dev nD → PrngReg)

/-- A counted loss at a time named two ways is one padded term. -/
theorem term_eq_termN (y : (⟨2, ![2048, 64]⟩ : Shape).Idx → EReal) (x : (⟨3, ![2048, 64, 1024]⟩ : Shape).Idx → EReal)
    (W : (⟨2, ![2, 1024]⟩ : Shape).Idx → EReal) (lens : (⟨1, ![64]⟩ : Shape).Idx → BitVec 32) (k : Fin 64)
    (a b : ℕ) (ha : a < 2048) (hab : a = b) : term y x W lens ⟨a, ha⟩ k = termN y x W lens k b := by
  subst hab
  exact (termN_of_lt y x W lens k a ha).symm

/-- An index of the 1 × 64 accumulator is (0, its column). -/
theorem eq_ix2_zero (j : (⟨2, ![1, 64]⟩ : Shape).Idx) : j = ix2 (0 : Fin 1) (⟨(j 1).val, (j 1).isLt⟩ : Fin 64) :=
  funext fun a => by
    match a with
    | ⟨0, _⟩ => exact Fin.ext (by have h : (j 0).val < 1 := (j 0).isLt; show (j 0).val = 0; omega)
    | ⟨1, _⟩ => rfl

/-- THE ACCUMULATOR AFTER POINT p, entry (0, k): sequence k's counted losses over the first 32·(p + 1) times. -/
theorem outsAt_apply (c : Dev nD) : ∀ (p : ℕ) (h : p < cfg0.N) (k : Fin 64),
    outsAt0 m c p h (ix2 (0 : Fin 1) k)
      = ∑ t ∈ Finset.range (32 * (p + 1)),
          termN (m ((c : Thread nD τ).loc main_arg0)) (m ((c : Thread nD τ).loc main_arg1)) (m ((c : Thread nD τ).loc main_arg2))
            (m ((c : Thread nD τ).loc main_arg3)) k t
  | 0, h, k => by
    refine (congrFun ((outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) (ms0_4 ⟨0, h⟩) (hs0_4 ⟨0, h⟩) _ (iblk m c 0 ⟨0, h⟩) (iblk m c 1 ⟨0, h⟩) (iblk m c 2 ⟨0, h⟩)
        (iblk m c 3 ⟨0, h⟩))) (ix2 (0 : Fin 1) k)).trans ?_
    rw [TileValue.pay1_apply, TileValue.pay2_apply, Ideal.ofBits_zero_f32, zero_add,
      show 32 * (0 + 1) = 0 + 32 from rfl, range_add_block, Finset.range_zero, Finset.sum_empty, zero_add]
    refine Finset.sum_congr rfl fun r _ => ?_
    rw [tile_at m c ⟨0, h⟩ r k (row_lt ⟨0, h⟩ r)]
    exact term_eq_termN _ _ _ _ k _ _ _ (by show 32 * 0 + r.val = 0 + r.val; omega)
  | p + 1, h, k => by
    have hN : cfg0.N = 64 := N_0
    have hB : ¬(⟨p + 1, h⟩ : Fin cfg0.N).val % 64 = 0 := by dsimp only; omega
    refine (congrFun ((outsAt0_B m c ⟨p + 1, h⟩ hB).trans
      (out_B c (grid0.coords ⟨p + 1, h⟩) (ms0_0 ⟨p + 1, h⟩) (hs0_0 ⟨p + 1, h⟩) (ms0_1 ⟨p + 1, h⟩) (hs0_1 ⟨p + 1, h⟩) (ms0_2 ⟨p + 1, h⟩)
        (hs0_2 ⟨p + 1, h⟩) (ms0_3 ⟨p + 1, h⟩) (hs0_3 ⟨p + 1, h⟩) (ms0_4 ⟨p + 1, h⟩) (hs0_4 ⟨p + 1, h⟩) _ (iblk m c 0 ⟨p + 1, h⟩)
        (iblk m c 1 ⟨p + 1, h⟩) (iblk m c 2 ⟨p + 1, h⟩) (iblk m c 3 ⟨p + 1, h⟩)
        (outsAt0 m c ((⟨p + 1, h⟩ : Fin cfg0.N).val - 1) (Nat.lt_of_le_of_lt (Nat.sub_le _ _) (⟨p + 1, h⟩ : Fin cfg0.N).isLt))))
      (ix2 (0 : Fin 1) k)).trans ?_
    rw [TileValue.pay1_apply]
    show outsAt0 m c p _ (ix2 (0 : Fin 1) k) + _ = _
    rw [outsAt_apply c p _ k, show 32 * (p + 1 + 1) = 32 * (p + 1) + 32 from by omega, range_add_block]
    refine congrArg (_ + ·) (Finset.sum_congr rfl fun r _ => ?_)
    rw [tile_at m c ⟨p + 1, h⟩ r k (row_lt ⟨p + 1, h⟩ r)]
    exact term_eq_termN _ _ _ _ k _ _ _ rfl

/-- The result: at (0, k), sequence k's counted losses over all 2048 times. -/
def result (c : Dev nD) : Buf (Elt Ideal) ((c : Thread nD τ).loc main_v1) :=
  ((fun j => ∑ t ∈ Finset.range 2048,
    termN (m ((c : Thread nD τ).loc main_arg0)) (m ((c : Thread nD τ).loc main_arg1)) (m ((c : Thread nD τ).loc main_arg2))
      (m ((c : Thread nD τ).loc main_arg3)) (⟨(j 1).val, (j 1).isLt⟩ : Fin 64) t) : S1x64.Idx → EReal)

/-- After the last point the accumulator is the result. -/
theorem outsAt_last (c : Dev nD) (t : Fin cfg0.N) (h63 : t.val = 63) : outsAt0 m c t.val t.isLt = result m c := by
  obtain ⟨n, hn⟩ := t
  dsimp only at h63
  subst h63
  funext j
  rw [eq_ix2_zero j, outsAt_apply m c 63 hn]
  rfl

/-- The last point. -/
abbrev t63 : Fin cfg0.N := ⟨63, (by decide : 63 < grid0.N)⟩

/-- The one write-back, after point 63, writes the result: block (0, 0) of the 1 × 64 array, read through zero
    offsets, is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 64 := N_0
  have h63 : t.val = 63 := by have := (flush0_4 t).mp hf; have := t.isLt; omega
  obtain ⟨-, -, -, -, -, -, -, -, -, h0, h1, -⟩ := idx_facts t
  show (cfg0.win 4).cut (grid0.coords t) ((dats m 0 c).after 4 t) = _
  rw [after0_4, outsAt_last m c t h63]
  have hz' : (fun a => win0_4.index t a * main_v1.ty.shape.size a) = fun _ => 0 := funext fun a => by
    match a with
    | ⟨0, _⟩ => show win0_4.index t (0 : Fin 2) * 1 = 0; rw [h0]
    | ⟨1, _⟩ => show win0_4.index t (1 : Fin 2) * 64 = 0; rw [h1]
  exact (Memref.read_access_unit_zero (Elt Ideal) main_v1 hz' (fun a => by rw [congrFun hz' a]; simp) (result m c)).symm

/-- So the 1 × 64 result array ends holding the result: point 63's block covers it. -/
theorem final (c : Dev nD) : (dats m 0 c).arrAt 4 cfg0.N = result m c :=
  (dats m 0 c).arrAt_eq_of_cover 4 (result m c) (flushed_eq m c) fun i =>
    ⟨t63, (flush0_4 t63).mpr rfl, by
      show i ∈ ((View.whole main_v1).slice (win0_4.rect t63)).set
      rw [View.set_slice_whole, Rect.mem_set_unit]
      intro a
      have h0 : (i 0 : Nat) < 1 := (i 0).isLt
      have h1 : (i 1 : Nat) < 64 := (i 1).isLt
      match a with
      | ⟨0, _⟩ =>
        show win0_4.index t63 0 * win0_4.size 0 ≤ (i 0 : Nat)
          ∧ (i 0 : Nat) < win0_4.index t63 0 * win0_4.size 0 + win0_4.xsize (grid0.coords t63) 0
        rw [show win0_4.index t63 0 * win0_4.size 0 = 0 from by decide +kernel,
          show win0_4.xsize (grid0.coords t63) 0 = 1 from by decide +kernel]
        omega
      | ⟨1, _⟩ =>
        show win0_4.index t63 1 * win0_4.size 1 ≤ (i 1 : Nat)
          ∧ (i 1 : Nat) < win0_4.index t63 1 * win0_4.size 1 + win0_4.xsize (grid0.coords t63) 1
        rw [show win0_4.index t63 1 * win0_4.size 1 = 0 from by decide +kernel,
          show win0_4.xsize (grid0.coords t63) 1 = 64 from by decide +kernel]
        omega⟩

/-- The reshape after the region reads the 1 × 64 result as 64 entries. -/
theorem tail_eq (c : Dev nD) :
    Pipeline.afterTail₀ cfgs (dats m) 0 (V0 m) [hostOps1] c main_v2 = shapeCast S64 (result m c) shapeCasts_S1x64_S64 := by
  unfold Pipeline.afterTail₀
  show StableHlo.after hostOps1 _ (Proc.devRef .tc main_v2) = _
  after_results
  exact congrArg (fun z => shapeCast S64 z shapeCasts_S1x64_S64)
    ((Pipeline.withArrays_arr spec0 launch0.win.arr_inj c _ _ 4).trans (final m c))

/-- THE KERNEL PROGRAM'S RUN, read: its result at the reshaped result array, its arguments unchanged. -/
theorem run : θ_run defs (onTc (τ := τ) (main (F := Ideal))) ⟨m, fun _ => 0, ρ⟩ fun r => ∀ c : Dev nD,
      r.2.mem ((c.tc : Thread nD τ).loc main_v2) = shapeCast S64 (result m c) shapeCasts_S1x64_S64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

/-- The reshaped result, entry n: the specification's total. -/
theorem result_total (c : Dev nD) :
    (shapeCast S64 (result m c) shapeCasts_S1x64_S64 : S64.Idx → EReal)
      = total (m ((c : Thread nD τ).loc main_arg0)) (m ((c : Thread nD τ).loc main_arg1)) (m ((c : Thread nD τ).loc main_arg2))
          (m ((c : Thread nD τ).loc main_arg3)) := by
  funext j
  obtain ⟨n, rfl⟩ : ∃ n : Fin 64, j = ix1 n := ⟨j 0, eq_ix1 j⟩
  refine (shapeCast_apply (result m c) shapeCasts_S1x64_S64 (ix1 n) (ix2 (0 : Fin 1) n) (by
    show (S1x64.rowMajor (ix2 (0 : Fin 1) n)).val = (S64.rowMajor (ix1 n)).val
    rw [Shape.rowMajor_val_two, Shape.rowMajor_val_one]
    show 0 * 64 + n.val = n.val
    omega)).trans ?_
  unfold total
  rw [total_eq_range]
  rfl

end Cert.KernelIdeal.AccValue

end
-- ==== Proof.RefValue.lean ====
/-
  The reference program's result is the specification.

  The reference builds the mask from an iota over the 2048 times against the lengths, both repeated to 2048 × 64;
  takes one matrix product of the features with the two weight rows and slices its two columns out as the mean and
  the variance's logit; spells the logistic function as 1 / (1 + e^(−x)); and sums the counted losses over time from
  a zero. Read at an entry, stage by stage, that is the specification's counted loss at (t, n), and the final sum is
  the specification's total: the product's entry (t, n, k) is the sum over the 1024 feature coordinates of feature
  (t, n, d) times weight (k, d); the expanded quotient is the logistic function on every extended real; the zero the
  sum starts from is the additive unit.
-/
import proofs.«161206_j82325933130458_2_alg».proof.Proof.Gen.ReferenceIdeal.Read
import proofs.«161206_j82325933130458_2_alg».proof.Proof.NllSpec

noncomputable section

namespace Cert.ReferenceIdeal.RefValue

open Cert.ReferenceIdeal Cert.ReferenceIdeal.Read Idealize.ShloMosaic Idealize.ShloMosaic.ValueIdx Cert.NllSpec

variable (x0 : (⟨S2048x64, .f32⟩ : BufTy).Contents (Elt Ideal)) (x1 : (⟨S2048x64x1024, .f32⟩ : BufTy).Contents (Elt Ideal))
  (x2 : (⟨S2x1024, .f32⟩ : BufTy).Contents (Elt Ideal)) (x3 : (⟨S64, .i32⟩ : BufTy).Contents (Elt Ideal))

/-- The mask at (t, n): the word of t signed-below the length word of n. -/
theorem mask_apply (t : Fin 2048) (n : Fin 64) :
    val_main_v5 (F := Ideal) x3 (ix2 t n) = IntOp.cmpi .slt (BitVec.ofNat 32 t.val) (x3 (ix1 n)) := by
  have et : idx_main_v1 (idx_main_v3 (ix2 t n)) = ix1 t := funext fun a => Fin.ext (by match a with | ⟨0, _⟩ => rfl)
  have en : idx_main_v2 (idx_main_v4 (ix2 t n)) = ix1 n := funext fun a => Fin.ext (by match a with | ⟨0, _⟩ => rfl)
  rw [val_main_v5_apply, val_main_v3_apply, val_main_v1_apply, et, val_main_v0_apply, val_main_v4_apply, val_main_v2_apply, en]

/-- The product's entry (t, n, k): weight row k against the features of (t, n). -/
theorem prod_apply (k : Fin 2) (t : Fin 2048) (n : Fin 64) :
    val_main_v6 (F := Ideal) x1 x2 (ix3 t n k) = proj x1 x2 k t n := by
  rw [val_main_v6_apply]
  unfold proj
  refine Finset.sum_congr rfl fun d _ => ?_
  have el : lidx_main_v6 (ix3 t n k) d = ix3 t n d := funext fun a => Fin.ext (by
    match a with
    | ⟨0, _⟩ => rfl
    | ⟨1, _⟩ => rfl
    | ⟨2, _⟩ => rfl)
  have er : ridx_main_v6 (ix3 t n k) d = ix2 k d := funext fun a => Fin.ext (by
    match a with
    | ⟨0, _⟩ => rfl
    | ⟨1, _⟩ => rfl)
  rw [el, er]

/-- The mean at (t, n): column 0 of the product. -/
theorem mu_apply (t : Fin 2048) (n : Fin 64) : val_main_v8 (F := Ideal) x1 x2 (ix2 t n) = proj x1 x2 0 t n := by
  have e : idx_main_v7 (idx_main_v8 (ix2 t n)) = ix3 t n (0 : Fin 2) := funext fun a => Fin.ext (by
    have ht : t.val < 2048 := t.isLt
    have hn : n.val < 64 := n.isLt
    match a with
    | ⟨0, _⟩ => show (t.val * 64 + n.val) / 64 = t.val; omega
    | ⟨1, _⟩ => show (t.val * 64 + n.val) / 1 % 64 = n.val; omega
    | ⟨2, _⟩ => rfl)
  rw [val_main_v8_apply, val_main_v7_apply, e, prod_apply]

/-- The variance's logit at (t, n): column 1 of the product. -/
theorem lg_apply (t : Fin 2048) (n : Fin 64) : val_main_v10 (F := Ideal) x1 x2 (ix2 t n) = proj x1 x2 1 t n := by
  have e : idx_main_v9 (idx_main_v10 (ix2 t n)) = ix3 t n (1 : Fin 2) := funext fun a => Fin.ext (by
    have ht : t.val < 2048 := t.isLt
    have hn : n.val < 64 := n.isLt
    match a with
    | ⟨0, _⟩ => show (t.val * 64 + n.val) / 64 = t.val; omega
    | ⟨1, _⟩ => show (t.val * 64 + n.val) / 1 % 64 = n.val; omega
    | ⟨2, _⟩ => rfl)
  rw [val_main_v10_apply, val_main_v9_apply, e, prod_apply]

/-- The variance at (t, n): the logistic function of the logit, spelt as a quotient, clamped below. -/
theorem var_apply (t : Fin 2048) (n : Fin 64) :
    val_main_v18 (F := Ideal) x1 x2 (ix2 t n)
      = max (Ideal.logistic (proj x1 x2 1 t n)) (Ideal.ofBits .f32 0x358637BD#32) := by
  rw [val_main_v18_apply, val_main_v16_apply, val_main_v15_apply, val_main_cst_0_apply, val_main_v14_apply, val_main_v13_apply,
    val_main_cst_apply, val_main_v12_apply, val_main_v11_apply, lg_apply, val_main_v17_apply, val_main_cst_1_apply]
  exact congrArg (max · (Ideal.ofBits .f32 0x358637BD#32)) (logistic_expanded (proj x1 x2 1 t n))

/-- The loss at (t, n). -/
theorem nll_apply (t : Fin 2048) (n : Fin 64) :
    val_main_v27 (F := Ideal) x0 x1 x2 (ix2 t n) = nllAt (proj x1 x2 0 t n) (proj x1 x2 1 t n) (x0 (ix2 t n)) := by
  rw [val_main_v27_apply, val_main_v25_apply, val_main_v24_apply, val_main_cst_2_apply, val_main_v23_apply, val_main_v19_apply,
    val_main_v22_apply, val_main_v21_apply, val_main_v20_apply, var_apply, mu_apply, val_main_v26_apply, val_main_cst_3_apply]
  rfl

/-- The counted loss at (t, n). -/
theorem counted_apply (t : Fin 2048) (n : Fin 64) :
    val_main_v28 (F := Ideal) x0 x1 x2 x3 (ix2 t n) = term x0 x1 x2 x3 t n := by
  rw [val_main_v28_apply, mask_apply, nll_apply, val_main_call0_v1_apply, val_main_call0_v0_apply, val_main_cst_4_apply]
  rfl

/-- THE REFERENCE'S RESULT: the counted losses summed over time. -/
theorem result_eq : val_main_v29 (F := Ideal) x0 x1 x2 x3 = total x0 x1 x2 x3 := by
  funext j
  obtain ⟨n, rfl⟩ : ∃ n : Fin 64, j = ix1 n := ⟨j 0, eq_ix1 j⟩
  rw [val_main_v29_apply, val_main_cst_5_apply]
  show Ideal.ofBits .f32 0x00000000#32 + _ = _
  rw [Ideal.ofBits_zero_f32, zero_add]
  unfold total
  refine Finset.sum_congr rfl fun t _ => ?_
  have e : idx_main_v29 (ix1 n) t = ix2 t n := funext fun a => Fin.ext (by
    match a with
    | ⟨0, _⟩ => rfl
    | ⟨1, _⟩ => rfl)
  rw [e, counted_apply]

end Cert.ReferenceIdeal.RefValue

end
-- ==== Proof.lean ====
/-
  The masked Gaussian negative log-likelihood kernel against its jnp reference, over the extended reals.

  Both programs compute, for every sequence n, the sum over the 2048 times t < lens[n] of
      ½ · (log v + (y − mu)² / v) + c,   mu = Σ_d x[t, n, d] · W[0, d],   v = max (logistic (Σ_d x[t, n, d] · W[1, d])) ε
  (Proof/NllSpec.lean states it as one function of the argument arrays).

  The kernel walks the times in 64 blocks of 32, keeps a 1 × 64 accumulator that it zeroes at the first block and adds
  each block's column sums to, and writes it back once; a reshape to 64 entries follows (Proof/TileValue.lean: a
  block's tile at an entry; Proof/KernelValue.lean: the blocks read off the arguments, the tile at a grid point;
  Proof/KernelRun.lean: the accumulator after every point by induction, the write-back, the run). The reference takes
  one matrix product for both weight rows, spells the logistic function as 1 / (1 + e^(−x)), masks with an iota over
  all times and sums once over time (Proof/RefValue.lean, over the generated stage-by-stage reading).

  The two agree entry by entry on every extended real: the expanded quotient IS the logistic function, the float
  literals are the same bit patterns on both sides, and the only law between the two summations is that a sum over
  2048 times is the sum of its 64 consecutive blocks' sums, which needs associativity alone. The precondition (finite
  inputs) is therefore not used by the value claim. The frames of the two kernel programs are the generated ones; the
  reference's frame is its generated run with the result dropped; the idealization rewrote nothing.
-/
import proofs.«161206_j82325933130458_2_alg».proof.Defs
import proofs.«161206_j82325933130458_2_alg».proof.Proof.Gen.Kernel
import proofs.«161206_j82325933130458_2_alg».proof.Proof.Gen.Kernel.Skeleton
import proofs.«161206_j82325933130458_2_alg».proof.Proof.Gen.Kernel.Launch
import proofs.«161206_j82325933130458_2_alg».proof.Proof.Gen.Kernel.Points
import proofs.«161206_j82325933130458_2_alg».proof.Proof.Gen.Kernel.Frame
import proofs.«161206_j82325933130458_2_alg».proof.Proof.Gen.KernelIdeal
import proofs.«161206_j82325933130458_2_alg».proof.Proof.Gen.KernelIdeal.Skeleton
import proofs.«161206_j82325933130458_2_alg».proof.Proof.Gen.KernelIdeal.Launch
import proofs.«161206_j82325933130458_2_alg».proof.Proof.Gen.KernelIdeal.Points
import proofs.«161206_j82325933130458_2_alg».proof.Proof.Gen.KernelIdeal.Frame
import proofs.«161206_j82325933130458_2_alg».proof.Proof.Gen.ReferenceIdeal
import proofs.«161206_j82325933130458_2_alg».proof.Proof.Gen.Pre_finite_inputs
import proofs.«161206_j82325933130458_2_alg».proof.Proof.Gen.ReferenceIdeal.Run
import proofs.«161206_j82325933130458_2_alg».proof.Proof.Gen.ReferenceIdeal.Read
import proofs.«161206_j82325933130458_2_alg».proof.Proof.KernelRun
import proofs.«161206_j82325933130458_2_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read over the extended reals: nothing to preserve. -/
theorem preserves : Cert.preserves_Kernel_KernelIdeal := trivial

/-- From memories that agree on the arguments the kernel's result array ends at the specification's total of them
    (its run), and so does the reference's (its run, read stage by stage). -/
theorem algebraic : Cert.algebraic_KernelIdeal_ReferenceIdeal := by
  intro m ρ m' ρ' _ hagree
  refine ⟨fun c => shapeCast Cert.KernelIdeal.S64 (Cert.KernelIdeal.AccValue.result m c) Cert.KernelIdeal.Gen.shapeCasts_S1x64_S64,
    Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq, (hagree c).1, (hagree c).2.1,
    (hagree c).2.2.1, (hagree c).2.2.2]
  exact (Cert.KernelIdeal.AccValue.result_total m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
